-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x160000 : Shape := ⟨2, ![256, 160000]⟩
abbrev S_ : Shape := ⟨0, ![]⟩

class Facts : Prop where
  bcast_S_S256x160000 : S_.BroadcastsInDim S256x160000 (![] : Fin 0 → Fin S256x160000.rank)
  reducesTo_S256x160000_S_d0_1 : S256x160000.ReducesTo [0, 1] S_
  h_S_ : 0 < S_.numel

variable [Facts]

def fn {F : FTy → Type} [FloatOps F] (main_arg0 : FVec F S256x160000 .f32) : IVec S_ 1 :=
  let main_v0 : FVec F S256x160000 .f32 := Host.absf main_arg0
  let main_cst : FVec F S_ .f32 := constant S_ .f32 0x7F800000#32
  let main_v1 : FVec F S256x160000 .f32 := broadcastInDim S256x160000 ![] bcast_S_S256x160000 main_cst
  let main_v2 : IVec S256x160000 1 := cmpf .olt main_v0 main_v1
  let main_c : IVec S_ 1 := constantI S_ 1 1#1
  let main_v3 : IVec S_ 1 := (fun x v => Host.reduce IntOp.andi x v reducesTo_S256x160000_S_d0_1 h_S_) main_v2 main_c
  main_v3
-- ==== Kernel.lean ====
abbrev S256x160000 : Shape := ⟨2, ![256, 160000]⟩
abbrev S256x1 : Shape := ⟨2, ![256, 1]⟩
abbrev S128x6400 : Shape := ⟨2, ![128, 6400]⟩
abbrev S128x1 : Shape := ⟨2, ![128, 1]⟩
abbrev S128 : Shape := ⟨1, ![128]⟩
abbrev S256x3200 : Shape := ⟨2, ![256, 3200]⟩

abbrev nBuf : Space → Nat
  | .hbm => 3
  | .vmem => 9
  | .smem => 0
  | _ => 0

abbrev bufTy : (tb : Table) → Fin (tcTables nBuf tb) → BufTy
  | .hbm, ⟨0, _⟩ => ⟨S256x160000, .f32⟩
  | .hbm, ⟨1, _⟩ => ⟨S256x1, .f32⟩
  | .hbm, ⟨2, _⟩ => ⟨S256x160000, .f32⟩
  | .local _ .vmem, ⟨0, _⟩ => ⟨S128x6400, .f32⟩
  | .local _ .vmem, ⟨1, _⟩ => ⟨S128x6400, .f32⟩
  | .local _ .vmem, ⟨2, _⟩ => ⟨S128x1, .f32⟩
  | .local _ .vmem, ⟨3, _⟩ => ⟨S128x1, .f32⟩
  | .local _ .vmem, ⟨4, _⟩ => ⟨S256x3200, .f32⟩
  | .local _ .vmem, ⟨5, _⟩ => ⟨S256x3200, .f32⟩
  | .local _ .vmem, ⟨6, _⟩ => ⟨S256x1, .f32⟩
  | .local _ .vmem, ⟨7, _⟩ => ⟨S256x3200, .f32⟩
  | .local _ .vmem, ⟨8, _⟩ => ⟨S256x3200, .f32⟩
  | _, _ => ⟨S256x160000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S256x3200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S128x1_S128x1_0_0 : ∀ a, (![0, 0] : Fin 2 → Nat) a + S128x1.size a ≤ S128x1.size a
  h_S128x1 : 0 < S128x1.numel
  inb_S128x6400_S128x6400_0_0 : ∀ a, (![0, 0] : Fin 2 → Nat) a + S128x6400.size a ≤ S128x6400.size a
  h_S128x6400 : 0 < S128x6400.numel
  reduces_S128x6400_S128 : S128x6400.Reduces [1] S128
  shapeCasts_S128_S128x1 : S128.ShapeCasts S128x1
  shapeCasts_S128x1_S128x1 : S128x1.ShapeCasts S128x1
  inb_S256x3200_S256x3200_0_0 : ∀ a, (![0, 0] : Fin 2 → Nat) a + S256x3200.size a ≤ S256x3200.size a
  h_S256x3200 : 0 < S256x3200.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  rotates_S256x1_d0 : S256x1.Rotates 0 none
  rotates_S256x3200_d0 : S256x3200.Rotates 0 none
  broadcasts_S256x1_S256x3200 : S256x1.Broadcasts S256x3200
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x6400.size a ≤ S256x160000.size a
  hwx0_0 : ∀ i : grid0.Coords, EltTy.bits .f32 = 32 ∨ (Rect.block (s := S256x160000) S128x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S256x1.size a
  hwx0_1 : ∀ i : grid0.Coords, EltTy.bits .f32 = 32 ∨ (Rect.block (s := S256x1) S128x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x3200.size a ≤ S256x160000.size a
  hwx1_0 : ∀ i : grid1.Coords, EltTy.bits .f32 = 32 ∨ (Rect.block (s := S256x160000) S256x3200.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S256x1.size a
  hwx1_1 : ∀ i : grid1.Coords, EltTy.bits .f32 = 32 ∨ (Rect.block (s := S256x1) S256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x3200.size a ≤ S256x160000.size a
  hwx1_2 : ∀ i : grid1.Coords, EltTy.bits .f32 = 32 ∨ (Rect.block (s := S256x160000) S256x3200.size (cc1_transform_2 i) (hinb1_2 i)).WholeWords (EltTy.packing .f32)

variable [Facts₀]

abbrev win0_0 : Pipeline.Window sig grid0 :=
  Pipeline.Window.ofSpec (Memref.whole main_arg0) S128x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S256x3200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S256x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x3200.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S256x160000 : Shape := ⟨2, ![256, 160000]⟩
abbrev S_ : Shape := ⟨0, ![]⟩
abbrev S256 : Shape := ⟨1, ![256]⟩
abbrev S255x160000 : Shape := ⟨2, ![255, 160000]⟩
abbrev S1x160000 : Shape := ⟨2, ![1, 160000]⟩
abbrev S255 : Shape := ⟨1, ![255]⟩
abbrev S1 : Shape := ⟨1, ![1]⟩
abbrev S256x1 : Shape := ⟨2, ![256, 1]⟩

abbrev nBuf : Space → Nat
  | .hbm => 30
  | .vmem => 0
  | .smem => 0
  | _ => 0

abbrev bufTy : (tb : Table) → Fin (tcTables nBuf tb) → BufTy
  | .hbm, ⟨0, _⟩ => ⟨S256x160000, .f32⟩
  | .hbm, ⟨1, _⟩ => ⟨S256x160000, .f32⟩
  | .hbm, ⟨2, _⟩ => ⟨S_, .f32⟩
  | .hbm, ⟨3, _⟩ => ⟨S256, .f32⟩
  | .hbm, ⟨4, _⟩ => ⟨S_, .f32⟩
  | .hbm, ⟨5, _⟩ => ⟨S256, .f32⟩
  | .hbm, ⟨6, _⟩ => ⟨S256, .f32⟩
  | .hbm, ⟨7, _⟩ => ⟨S255x160000, .f32⟩
  | .hbm, ⟨8, _⟩ => ⟨S1x160000, .f32⟩
  | .hbm, ⟨9, _⟩ => ⟨S256x160000, .f32⟩
  | .hbm, ⟨10, _⟩ => ⟨S255, .f32⟩
  | .hbm, ⟨11, _⟩ => ⟨S1, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S_, .f32⟩
  | .hbm, ⟨24, _⟩ => ⟨S256, .f32⟩
  | .hbm, ⟨25, _⟩ => ⟨S256, .f32⟩
  | .hbm, ⟨26, _⟩ => ⟨S256x1, .f32⟩
  | .hbm, ⟨27, _⟩ => ⟨S256x160000, .f32⟩
  | .hbm, ⟨28, _⟩ => ⟨S256x160000, .f32⟩
  | .hbm, ⟨29, _⟩ => ⟨S256x160000, .f32⟩
  | _, _ => ⟨S256x160000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_v4 : Ref sig .tc := ⟨.hbm, 9, rfl⟩
abbrev main_call1_v0 : Ref sig .tc := ⟨.hbm, 10, rfl⟩
abbrev main_call1_v1 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_cst_3 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩

abbrev nD : Nat := 1
abbrev τ : Topo := Topo.v7x

variable {F : FTy → Type} [FloatOps F]

class Facts₀ : Prop where
  reducesTo_S256x160000_S256_d1 : S256x160000.ReducesTo [1] S256
  h_S_ : 0 < S_.numel
  bcast_S_S256 : S_.BroadcastsInDim S256 (![] : Fin 0 → Fin S256.rank)
  slices_S256x160000_S255x160000_1_0 : S256x160000.Slices ![1, 0] S255x160000
  slices_S256x160000_S1x160000_0_0 : S256x160000.Slices ![0, 0] S1x160000
  concatenates_S255x160000_S1x160000_S256x160000_d0 : Shape.Concatenates [S255x160000, S1x160000] S256x160000 0
  slices_S256_S255_1 : S256.Slices ![1] S255
  slices_S256_S1_0 : S256.Slices ![0] S1
  concatenates_S255_S1_S256_d0 : Shape.Concatenates [S255, S1] S256 0
  bcast_S256_S256x1_0 : S256.BroadcastsInDim S256x1 (![0] : Fin 1 → Fin S256x1.rank)
  bcast_S256x1_S256x160000_0_1 : S256x1.BroadcastsInDim S256x160000 (![0, 1] : Fin 2 → Fin S256x160000.rank)

variable [Facts₀]

class Facts : Prop extends Facts₀ where

variable [Facts]
-- ==== Proof.EnergyCases.lean ====
/-
  The energy pass, one grid step at a time. The pass visits, for each half of the waveforms (128 rows), the
  25 stretches of 6400 samples in order, and keeps a column of 128 running sums in its output block. A step is
  in one of three situations, and in each the column it leaves is a pure function of the stretch `x` it reads
  and, except on the first stretch, of the column `xo` the step before left:
    first stretch (the column is reset to zero first):   zero column + row sums of x²
    a middle stretch:                                    xo + row sums of x²
    last stretch (the total is divided at the end):      (xo + row sums of x²) / 160000
  "xo + row sums of x²" is the body's second payload, the zero column its first, the division its third. These
  hold for any float values: nothing is computed here, the stores of each situation are read back.
-/
import proofs.«104837_j55559696941464_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Energy

open Cert.KernelIdeal Cert.KernelIdeal.Gen

variable {F : FTy → Type} [FloatOps F]

theorem hz : (![0, 0] : Fin 2 → Nat) = fun _ => 0 := funext fun a => by fin_cases a <;> rfl

/-- A middle stretch: one store covers the column, with the running column plus the stretch's row sums. -/
theorem middle_leaves (c : Dev nD) (i : grid0.Coords) (a2 : Memref sig .tc .vmem S128x6400 .f32) (h2 : a2.IsWhole)
    (a3 : Memref sig .tc .vmem S128x1 .f32) (h3 : a3.IsWhole) (hc0 : ¬cond0_0 i) (hc1 : ¬cond0_1 i)
    (x : Vec F S128x6400 .f32) (xo : Vec F S128x1 .f32) :
    out0_B_1 c i a2 h2 a3 h3 hc0 hc1 x xo = k0_pay2 x xo := by
  unfold out0_B_1
  rw [View.read_writes_eq_canon _ _ _ (cover0_B_1 c i a2 h2 a3 h3 hc0 hc1 x xo)]
  unfold kernelRun0_B
  dsimp only
  rw [View.canon_unit_zero hz]
  simp only [View.readAt_eq_ld, h2.read_unread, h3.read_unread, View.ld_unit_zero (S := S128x6400) hz,
    View.ld_unit_zero (S := S128x1) hz]

/-- The first stretch: the zero column is stored, read back, and the stretch's row sums added to it. -/
theorem first_leaves (c : Dev nD) (i : grid0.Coords) (a2 : Memref sig .tc .vmem S128x6400 .f32) (h2 : a2.IsWhole)
    (a3 : Memref sig .tc .vmem S128x1 .f32) (h3 : a3.IsWhole) (hc0 : cond0_0 i) (hc1 : ¬cond0_1 i)
    (x : Vec F S128x6400 .f32) :
    out0_A_1 c i a2 h2 a3 h3 hc0 hc1 x = k0_pay2 x k0_pay1 := by
  unfold out0_A_1
  rw [View.read_writes_eq_canon _ _ _ (cover0_A_1 c i a2 h2 a3 h3 hc0 hc1 x)]
  unfold kernelRun0_A
  dsimp only
  sl_unfold_words
  rw [View.canon_cons_unit_zero (S := S128x1) hz, View.readCov_unit_zero (S := S128x1) _ hz]
  simp only [View.readAt_eq_ld, h2.read_unread, View.ld_unit_zero (S := S128x6400) hz]

/-- The last stretch: the updated column is stored, read back, and divided. -/
theorem last_leaves (c : Dev nD) (i : grid0.Coords) (a2 : Memref sig .tc .vmem S128x6400 .f32) (h2 : a2.IsWhole)
    (a3 : Memref sig .tc .vmem S128x1 .f32) (h3 : a3.IsWhole) (hc0 : ¬cond0_0 i) (hc1 : cond0_1 i)
    (x : Vec F S128x6400 .f32) (xo : Vec F S128x1 .f32) :
    out0_C_1 c i a2 h2 a3 h3 hc0 hc1 x xo = k0_pay3 (k0_pay2 x xo) := by
  unfold out0_C_1
  rw [View.read_writes_eq_canon _ _ _ (cover0_C_1 c i a2 h2 a3 h3 hc0 hc1 x xo)]
  unfold kernelRun0_C
  dsimp only
  sl_unfold_words
  rw [View.canon_cons_unit_zero (S := S128x1) hz, View.readCov_unit_zero (S := S128x1) _ hz]
  simp only [View.readAt_eq_ld, h2.read_unread, h3.read_unread, View.ld_unit_zero (S := S128x6400) hz,
    View.ld_unit_zero (S := S128x1) hz]

end Cert.KernelIdeal.Energy

end
-- ==== Proof.MixSpec.lean ====
/-
  Each waveform mixed with the next one, scaled by the ratio of their energies: the one function of the
  argument array that both programs compute at the extended reals.

  For 256 waveforms of 160000 samples, the energy of waveform r is the mean of its squared samples,
      E r = (0 + ∑ₖ x[r,k]²) / 160000,
  the scale of waveform r against its successor r⁺ = r + 1 (the last one's successor is the first) is
      ρ r = min 50 (max 0.02 (√(E r / max (E r⁺) 1e-10))),
  and the result is  x[r,j] + ρ r · x[r⁺,j].  The five float constants stay the binary words both programs
  carry: the same word on both sides is never evaluated.

  The sum of a waveform's squares is also written over natural sample numbers, so that it can be cut into
  stretches of consecutive samples and the stretches added one after the other.
-/
import Idealize.ShloMosaic.PureOps.Ideal
import Idealize.ShloMosaic.Lib.ValueIdx

noncomputable section

namespace Cert.SegMix

open Idealize.ShloMosaic Idealize.ShloMosaic.ValueIdx

/-- 256 waveforms of 160000 samples each. -/
abbrev Waves : Type := (⟨2, ![256, 160000]⟩ : Shape).Idx → EReal
/-- One number per waveform, as a column. -/
abbrev Col : Type := (⟨2, ![256, 1]⟩ : Shape).Idx → EReal

/-- The waveform after `r`; the last one is followed by the first. -/
def nxt (r : Fin 256) : Fin 256 := ⟨(r.val + 1) % 256, Nat.mod_lt _ (by decide)⟩

theorem nxt_val (r : Fin 256) : (nxt r).val = (r.val + 1) % 256 := rfl

/-- The energy of waveform `r`: its squared samples summed from the zero word, divided by the word of 160000. -/
def energy (x : Waves) (r : Fin 256) : EReal :=
  Ideal.div (Ideal.ofBits .f32 0x00000000#32 + ∑ k : Fin 160000, x (ix2 r k) * x (ix2 r k)) (Ideal.ofBits .f32 0x481C4000#32)

/-- The energies as a column. -/
def energyCol (x : Waves) : Col := fun i => energy x (i 0)

/-- The scale of waveform `p` against its successor, from a column of energies: the square root of the ratio,
    the denominator kept above the small word, the result kept between the words of 0.02 and 50. -/
def scale (e : Col) (p : Fin 256) : EReal :=
  min (Ideal.ofBits .f32 0x42480000#32) (max (Ideal.ofBits .f32 0x3CA3D70A#32)
    (Ideal.sqrt (Ideal.div (e (ix2 p 0)) (max (e (ix2 (nxt p) 0)) (Ideal.ofBits .f32 0x2EDBE6FF#32)))))

/-- Each waveform plus its scaled successor, for a given column of energies. -/
def mixWith (x : Waves) (e : Col) : Waves := fun i => x i + scale e (i 0) * x (ix2 (nxt (i 0)) (i 1))

/-- The result: each waveform plus its successor scaled by the ratio of their energies. -/
def mix (x : Waves) : Waves := mixWith x (energyCol x)

/-! ## The sum of squares over natural sample numbers -/

/-- The square of sample `j` of waveform `r`, zero past the last sample. -/
def sq (x : Waves) (r : Fin 256) (j : ℕ) : EReal :=
  if h : j < 160000 then x (ix2 r ⟨j, h⟩) * x (ix2 r ⟨j, h⟩) else 0

theorem sq_of_lt (x : Waves) (r : Fin 256) (j : ℕ) (h : j < 160000) : sq x r j = x (ix2 r ⟨j, h⟩) * x (ix2 r ⟨j, h⟩) :=
  dif_pos h

/-- The sum over the samples of a waveform is the sum over the first 160000 naturals. -/
theorem sum_sq (x : Waves) (r : Fin 256) :
    ∑ k : Fin 160000, x (ix2 r k) * x (ix2 r k) = ∑ j ∈ Finset.range 160000, sq x r j := by
  rw [← Fin.sum_univ_eq_sum_range (fun j => sq x r j) 160000]
  exact Finset.sum_congr rfl fun k _ => (sq_of_lt x r k.val k.isLt).symm

/-- What has been added up after the stretches 0, …, s of 6400 samples each: the running sum from the zero word —
    and, after the last of the 25 stretches, the mean. -/
def running (x : Waves) (r : Fin 256) (s : ℕ) : EReal :=
  if s = 24 then energy x r else Ideal.ofBits .f32 0x00000000#32 + ∑ j ∈ Finset.range (6400 * (s + 1)), sq x r j

/-- Stretch 0 added to the zero word. -/
theorem running_first (x : Waves) (r : Fin 256) :
    Ideal.ofBits .f32 0x00000000#32 + ∑ l ∈ Finset.range 6400, sq x r (6400 * 0 + l) = running x r 0 := by
  unfold running
  rw [if_neg (by decide)]
  simp only [Nat.mul_zero, Nat.zero_add, Nat.mul_one]

/-- Stretch s + 1 added to the running sum after stretch s, before the last stretch. -/
theorem running_step (x : Waves) (r : Fin 256) (s : ℕ) (hs : s + 1 < 24) :
    running x r s + ∑ l ∈ Finset.range 6400, sq x r (6400 * (s + 1) + l) = running x r (s + 1) := by
  unfold running
  rw [if_neg (by omega), if_neg (by omega), add_assoc, ← Finset.sum_range_add]
  rfl

/-- The last stretch added to the running sum, the total divided: the energy. -/
theorem running_last (x : Waves) (r : Fin 256) :
    Ideal.div (running x r 23 + ∑ l ∈ Finset.range 6400, sq x r (6400 * 24 + l)) (Ideal.ofBits .f32 0x481C4000#32)
      = running x r 24 := by
  unfold running
  rw [if_neg (by decide), if_pos rfl, add_assoc, ← Finset.sum_range_add]
  unfold energy
  rw [sum_sq]

end Cert.SegMix

end
-- ==== Proof.LibRowOps.lean ====
/-
  Row operations read at coordinates, at the extended reals: a sum over the last or the middle axis of a
  rank-3 vector and over the last axis of a rank-2 one, as a sum over that axis's coordinate; broadcasts
  along a unit axis and casts that insert a unit axis, read at the coordinates of the result. Every
  statement is over arbitrary extents and spells indices by their coordinates.
-/
import Idealize.ShloMosaic.PureOps.Ideal.Laws
import Idealize.ShloMosaic.Lib.ValueIdx
import Idealize.ShloMosaic.Lib.Pipeline.Value

noncomputable section

namespace Cert.LibRowOps

open Idealize.ShloMosaic Idealize.ShloMosaic.ValueIdx

/-- A sum over the last axis of an [A, B, C] vector, at (a, b): the sum over k of the entry at (a, b, k). -/
theorem sum_last3 {A B C : ℕ} (src : FVec Ideal ⟨3, ![A, B, C]⟩ .f32)
    (h : (⟨3, ![A, B, C]⟩ : Shape).Reduces [2] ⟨2, ![A, B]⟩) (hφ : FKind.Formats .f32)
    (hacc : (0x00000000#32 : BitVec 32) = 0x00000000#32) (a : Fin A) (b : Fin B) :
    multiReduction .add [2] ⟨2, ![A, B]⟩ src 0x00000000#32 h hφ hacc (ix2 a b) = ∑ k : Fin C, src (ix3 a b k) := by
  refine (Ideal.multiReduction_add_single src 0x00000000#32 h hφ hacc (ix2 a b)).trans ?_
  refine Finset.sum_congr rfl fun k _ => congrArg src ?_
  funext d
  match d with
  | ⟨0, _⟩ => rfl
  | ⟨1, _⟩ => rfl
  | ⟨2, _⟩ => rfl

/-- A sum over the middle axis of an [A, B, C] vector, at (a, c): the sum over k of the entry at (a, k, c). -/
theorem sum_mid3 {A B C : ℕ} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = 0x00000000#32) (a : Fin A) (c : Fin C) :
    multiReduction .add [1] ⟨2, ![A, C]⟩ src 0x00000000#32 h hφ hacc (ix2 a c) = ∑ k : Fin B, src (ix3 a k c) := by
  refine (Ideal.multiReduction_add_single src 0x00000000#32 h hφ hacc (ix2 a c)).trans ?_
  refine Finset.sum_congr rfl fun k _ => congrArg src ?_
  funext d
  match d with
  | ⟨0, _⟩ => rfl
  | ⟨1, _⟩ => rfl
  | ⟨2, _⟩ => rfl

/-- A sum over the last axis of an [A, B] vector, at a: the sum over k of the entry at (a, k). -/
theorem sum_last2 {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ src 0x00000000#32 h hφ hacc (ix1 a) = ∑ k : Fin B, src (ix2 a k) := by
  refine (Ideal.multiReduction_add_single src 0x00000000#32 h hφ hacc (ix1 a)).trans ?_
  refine Finset.sum_congr rfl fun k _ => congrArg src ?_
  funext d
  match d with
  | ⟨0, _⟩ => rfl
  | ⟨1, _⟩ => rfl

variable {α : Type}

/-- [A, 1, C] broadcast to [A, B, C], at (a, b, c): the operand at (a, 0, c). -/
theorem bcast_a1c_abc {A B C : ℕ} (x : (⟨3, ![A, 1, C]⟩ : Shape).Idx → α)
    (h : (⟨3, ![A, 1, C]⟩ : Shape).Broadcasts ⟨3, ![A, B, C]⟩) (a : Fin A) (b : Fin B) (c : Fin C) :
    broadcastTo ⟨3, ![A, B, C]⟩ x h (ix3 a b c) = x (ix3 a 0 c) := by
  refine broadcastTo_apply x h _ _ fun d => ?_
  match d with
  | ⟨0, _⟩ =>
    show a.val = if A = 1 then 0 else a.val
    split_ifs with hA
    · have := a.isLt; omega
    · rfl
  | ⟨1, _⟩ => rfl
  | ⟨2, _⟩ =>
    show c.val = if C = 1 then 0 else c.val
    split_ifs with hC
    · have := c.isLt; omega
    · rfl

/-- [A, B, 1] broadcast to [A, B, C], at (a, b, c): the operand at (a, b, 0). -/
theorem bcast_ab1_abc {A B C : ℕ} (x : (⟨3, ![A, B, 1]⟩ : Shape).Idx → α)
    (h : (⟨3, ![A, B, 1]⟩ : Shape).Broadcasts ⟨3, ![A, B, C]⟩) (a : Fin A) (b : Fin B) (c : Fin C) :
    broadcastTo ⟨3, ![A, B, C]⟩ x h (ix3 a b c) = x (ix3 a b 0) := by
  refine broadcastTo_apply x h _ _ fun d => ?_
  match d with
  | ⟨0, _⟩ =>
    show a.val = if A = 1 then 0 else a.val
    split_ifs with hA
    · have := a.isLt; omega
    · rfl
  | ⟨1, _⟩ =>
    show b.val = if B = 1 then 0 else b.val
    split_ifs with hB
    · have := b.isLt; omega
    · rfl
  | ⟨2, _⟩ => rfl

/-- [A, 1] broadcast to [A, B], at (a, b): the operand at (a, 0). -/
theorem bcast_a1_ab {A B : ℕ} (x : (⟨2, ![A, 1]⟩ : Shape).Idx → α)
    (h : (⟨2, ![A, 1]⟩ : Shape).Broadcasts ⟨2, ![A, B]⟩) (a : Fin A) (b : Fin B) :
    broadcastTo ⟨2, ![A, B]⟩ x h (ix2 a b) = x (ix2 a 0) := by
  refine broadcastTo_apply x h _ _ fun d => ?_
  match d with
  | ⟨0, _⟩ =>
    show a.val = if A = 1 then 0 else a.val
    split_ifs with hA
    · have := a.isLt; omega
    · rfl
  | ⟨1, _⟩ => rfl

/-- [1, B] broadcast to [A, B], at (a, b): the operand at (0, b). -/
theorem bcast_1b_ab {A B : ℕ} (x : (⟨2, ![1, B]⟩ : Shape).Idx → α)
    (h : (⟨2, ![1, B]⟩ : Shape).Broadcasts ⟨2, ![A, B]⟩) (a : Fin A) (b : Fin B) :
    broadcastTo ⟨2, ![A, B]⟩ x h (ix2 a b) = x (ix2 0 b) := by
  refine broadcastTo_apply x h _ _ fun d => ?_
  match d with
  | ⟨0, _⟩ => rfl
  | ⟨1, _⟩ =>
    show b.val = if B = 1 then 0 else b.val
    split_ifs with hB
    · have := b.isLt; omega
    · rfl

/-- [A, C] cast to [A, 1, C], at (a, 0, c): the operand at (a, c). -/
theorem cast_ac_a1c {A C : ℕ} (x : (⟨2, ![A, C]⟩ : Shape).Idx → α)
    (h : (⟨2, ![A, C]⟩ : Shape).ShapeCasts ⟨3, ![A, 1, C]⟩) (a : Fin A) (z : Fin 1) (c : Fin C) :
    shapeCast ⟨3, ![A, 1, C]⟩ x h (ix3 a z c) = x (ix2 a c) := by
  refine shapeCast_apply x h _ _ ?_
  rw [Shape.rowMajor_val_two, Shape.rowMajor_val_three]
  show a.val * C + c.val = (a.val * 1 + z.val) * C + c.val
  have := z.isLt
  have hz : z.val = 0 := by omega
  rw [hz]; ring

/-- [A, B] cast to [A, B, 1], at (a, b, 0): the operand at (a, b). -/
theorem cast_ab_ab1 {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) := by
  refine shapeCast_apply x h _ _ ?_
  rw [Shape.rowMajor_val_two, Shape.rowMajor_val_three]
  show a.val * B + b.val = (a.val * B + b.val) * 1 + z.val
  have := z.isLt
  omega

/-- [A] cast to [A, 1], at (a, 0): the operand at a. -/
theorem cast_a_a1 {A : ℕ} (x : (⟨1, ![A]⟩ : Shape).Idx → α)
    (h : (⟨1, ![A]⟩ : Shape).ShapeCasts ⟨2, ![A, 1]⟩) (a : Fin A) (z : Fin 1) :
    shapeCast ⟨2, ![A, 1]⟩ x h (ix2 a z) = x (ix1 a) := by
  refine shapeCast_apply x h _ _ ?_
  rw [Shape.rowMajor_val_one, Shape.rowMajor_val_two]
  show a.val = a.val * 1 + z.val
  have := z.isLt
  omega

end Cert.LibRowOps

end
-- ==== Proof.EnergyValue.lean ====
/-
  The energy pass as a whole: after it, the energy column holds, for every waveform, the mean of its squared
  samples.

  At the extended reals the column a grid step leaves is read row by row. Step n works on half n / 25 of the
  waveforms and on stretch n % 25 of the samples; row p of its block is waveform 128·(n / 25) + p, and sample l
  of the stretch is sample 6400·(n % 25) + l. So after step n row p of the column holds the running sum of that
  waveform's squares over the stretches 0, …, n % 25 — by induction on n, the three situations of a step each
  adding one stretch to what the step before left, the first one starting from the zero word and the last one
  dividing the total. A half's column is written back after its last stretch only, and the two halves tile the
  256 rows.
-/
import proofs.«104837_j55559696941464_2_alg».proof.Proof.EnergyCases
import proofs.«104837_j55559696941464_2_alg».proof.Proof.MixSpec
import proofs.«104837_j55559696941464_2_alg».proof.Proof.LibRowOps

noncomputable section

open Idealize.ShloMosaic Idealize.ShloMosaic.TcCoe Idealize.SL.Sem Idealize.ShloMosaic.ValueIdx
open Idealize.ShloMosaic.Pipeline (Dat)

namespace Cert.KernelIdeal.Energy

open Cert.KernelIdeal Cert.KernelIdeal.Gen Cert.SegMix

/-! ## The three payloads at a row -/

/-- The row sums of the squares of a [128, 6400] block, as a column, at row p. -/
theorem rowsums_at (x0 : FVec Ideal S128x6400 .f32) (p : Fin 128) (z : Fin 1) :
    shapeCast S128x1 (multiReduction .add [1] S128 (mulf x0 x0) 0x00000000#32 reduces_S128x6400_S128 (.inl rfl) rfl)
        shapeCasts_S128_S128x1 (ix2 p z)
      = ∑ l : Fin 6400, x0 (ix2 p l) * x0 (ix2 p l) :=
  (LibRowOps.cast_a_a1 _ shapeCasts_S128_S128x1 p z).trans
    (LibRowOps.sum_last2 (mulf x0 x0) reduces_S128x6400_S128 (.inl rfl) rfl p)

/-- A middle stretch at row p: the running entry plus the stretch's squares. -/
theorem middle_at (x0 : Vec Ideal S128x6400 .f32) (xo : Vec Ideal S128x1 .f32) (p : Fin 128) (z : Fin 1) :
    k0_pay2 (F := Ideal) x0 xo (ix2 p z) = xo (ix2 p z) + ∑ l : Fin 6400, x0 (ix2 p l) * x0 (ix2 p l) := by
  unfold k0_pay2
  show shapeCast S128x1 xo shapeCasts_S128x1_S128x1 (ix2 p z) + _ = _
  rw [shapeCast_self]
  exact congrArg (xo (ix2 p z) + ·) (rowsums_at x0 p z)

/-- The first stretch at row p: the zero word plus the stretch's squares. -/
theorem first_at (x0 : Vec Ideal S128x6400 .f32) (p : Fin 128) (z : Fin 1) :
    k0_pay2 (F := Ideal) x0 (k0_pay1 (F := Ideal) : Vec Ideal S128x1 .f32) (ix2 p z)
      = Ideal.ofBits .f32 0x00000000#32 + ∑ l : Fin 6400, x0 (ix2 p l) * x0 (ix2 p l) :=
  middle_at x0 (k0_pay1 (F := Ideal) : Vec Ideal S128x1 .f32) p z

/-- The last stretch at row p: the total divided by the word of 160000. -/
theorem last_at (x0 : Vec Ideal S128x6400 .f32) (xo : Vec Ideal S128x1 .f32) (p : Fin 128) (z : Fin 1) :
    k0_pay3 (F := Ideal) (k0_pay2 x0 xo) (ix2 p z)
      = Ideal.div (xo (ix2 p z) + ∑ l : Fin 6400, x0 (ix2 p l) * x0 (ix2 p l)) (Ideal.ofBits .f32 0x481C4000#32) := by
  unfold k0_pay3
  show Ideal.div (shapeCast S128x1 (k0_pay2 x0 xo) shapeCasts_S128x1_S128x1 (ix2 p z)) _ = _
  rw [shapeCast_self]
  exact congrArg (Ideal.div · _) (middle_at x0 xo p z)

/-! ## Which waveform and which samples a step reads -/

/-- The block indices of the two windows at step t: half t / 25 of the rows; stretch t % 25 of the samples. -/
theorem idx_facts : ∀ t : Fin cfg0.N, win0_0.index t (0 : Fin 2) = t.val / 25 ∧ win0_0.index t (1 : Fin 2) = t.val % 25
    ∧ win0_1.index t (0 : Fin 2) = t.val / 25 ∧ win0_1.index t (1 : Fin 2) = 0 :=
  (by decide +kernel : ∀ t : Fin grid0.N, _)

variable (V : (c : Dev nD) → (b : Ref sig .tc) → Buf (Elt Ideal) ((c : Thread nD τ).loc b))

/-- The stretch step t reads: a [128, 6400] block of the waveforms. -/
abbrev stretchOf (c : Dev nD) (t : Fin cfg0.N) : Vec Ideal S128x6400 .f32 := iblk0 V c 0 t

/-- Row p, sample l of step t's block is sample 6400·(t % 25) + l of waveform 128·(t / 25) + p. -/
theorem stretch_at (c : Dev nD) (t : Fin cfg0.N) (p : Fin 128) (l : Fin 6400) (r : Fin 256)
    (hr : r.val = 128 * (t.val / 25) + p.val) (j : Fin 160000) (hj : j.val = 6400 * (t.val % 25) + l.val) :
    stretchOf V c t (ix2 p l) = V c main_arg0 (ix2 r j) := by
  obtain ⟨e0, e1, -, -⟩ := idx_facts t
  show V c main_arg0 (((cfg0.win 0).blk t).view.emb (ix2 p l)) = V c main_arg0 (ix2 r j)
  refine congrArg (V c main_arg0) (funext fun a => Fin.ext ?_)
  match a with
  | ⟨0, _⟩ => show win0_0.index t (0 : Fin 2) * 128 + 1 * p.val = r.val; omega
  | ⟨1, _⟩ => show win0_0.index t (1 : Fin 2) * 6400 + 1 * l.val = j.val; omega

/-- The squares of row p of step t's block, summed: the stretch of that waveform's squares. -/
theorem stretch_sum (c : Dev nD) (t : Fin cfg0.N) (p : Fin 128) (r : Fin 256) (hr : r.val = 128 * (t.val / 25) + p.val) :
    ∑ l : Fin 6400, stretchOf V c t (ix2 p l) * stretchOf V c t (ix2 p l)
      = ∑ l ∈ Finset.range 6400, sq (V c main_arg0) r (6400 * (t.val % 25) + l) := by
  rw [← Fin.sum_univ_eq_sum_range (fun l => sq (V c main_arg0) r (6400 * (t.val % 25) + l)) 6400]
  refine Finset.sum_congr rfl fun l _ => ?_
  have hj : 6400 * (t.val % 25) + l.val < 160000 := by have := l.isLt; omega
  rw [sq_of_lt _ _ _ hj, stretch_at V c t p l r hr ⟨_, hj⟩ rfl]

/-! ## The accumulation -/

/-- After step n, row p of the column holds the running sum of waveform 128·(n / 25) + p over the stretches
    0, …, n % 25 (after a half's last stretch: the energy) — by induction on the step. -/
theorem column_after (c : Dev nD) : ∀ (n : ℕ) (h : n < cfg0.N) (p : Fin 128) (z : Fin 1) (r : Fin 256),
    r.val = 128 * (n / 25) + p.val →
    outsAt0 V c n h (ix2 p z) = running (V c main_arg0) r (n % 25)
  | 0, h, p, z, r, hr => by
    refine (congrFun ((outsAt0_A V c ⟨0, h⟩ rfl (by show ¬(0 % 25 = 24); decide)).trans
      (first_leaves c _ _ _ _ _ _ _ (stretchOf V c ⟨0, h⟩))) (ix2 p z)).trans ?_
    rw [first_at, stretch_sum V c ⟨0, h⟩ p r hr]
    exact running_first _ _
  | n + 1, h, p, z, r, hr => by
    have hN : n + 1 < 50 := lt_of_lt_of_eq h N_0
    by_cases h0 : (n + 1) % 25 = 0
    · have h1 : ¬(n + 1) % 25 = 24 := by omega
      refine (congrFun ((outsAt0_A V c ⟨n + 1, h⟩ h0 h1).trans
        (first_leaves c _ _ _ _ _ _ _ (stretchOf V c ⟨n + 1, h⟩))) (ix2 p z)).trans ?_
      rw [first_at, stretch_sum V c ⟨n + 1, h⟩ p r hr]
      show _ + ∑ l ∈ Finset.range 6400, sq (V c main_arg0) r (6400 * ((n + 1) % 25) + l)
        = running (V c main_arg0) r ((n + 1) % 25)
      rw [h0]
      exact running_first _ _
    · by_cases h1 : (n + 1) % 25 = 24
      · refine (congrFun ((outsAt0_C V c ⟨n + 1, h⟩ h0 h1).trans
          (last_leaves c _ _ _ _ _ _ _ (stretchOf V c ⟨n + 1, h⟩) (outsAt0 V c n (Nat.lt_of_succ_lt h)))) (ix2 p z)).trans ?_
        rw [last_at, stretch_sum V c ⟨n + 1, h⟩ p r hr, column_after c n (Nat.lt_of_succ_lt h) p z r (by omega)]
        show Ideal.div (running (V c main_arg0) r (n % 25)
            + ∑ l ∈ Finset.range 6400, sq (V c main_arg0) r (6400 * ((n + 1) % 25) + l)) _
          = running (V c main_arg0) r ((n + 1) % 25)
        rw [show n % 25 = 23 by omega, h1]
        exact running_last _ _
      · refine (congrFun ((outsAt0_B V c ⟨n + 1, h⟩ h0 h1).trans
          (middle_leaves c _ _ _ _ _ _ _ (stretchOf V c ⟨n + 1, h⟩) (outsAt0 V c n (Nat.lt_of_succ_lt h)))) (ix2 p z)).trans ?_
        rw [middle_at, stretch_sum V c ⟨n + 1, h⟩ p r hr, column_after c n (Nat.lt_of_succ_lt h) p z r (by omega)]
        show running (V c main_arg0) r (n % 25)
            + ∑ l ∈ Finset.range 6400, sq (V c main_arg0) r (6400 * ((n + 1) % 25) + l)
          = running (V c main_arg0) r ((n + 1) % 25)
        rw [show (n + 1) % 25 = n % 25 + 1 by omega]
        exact running_step _ _ _ (by omega)

/-! ## The energy column after the pass -/

/-- What a half's last step writes back is that half's block of the energy column. -/
theorem flushed_eq (c : Dev nD) (t : Fin cfg0.N) (hf : (cfg0.win 1).flush t = true) :
    (dat0 V c).flushed 1 t = ((cfg0.win 1).blk t).view.read (Elt Ideal) (energyCol (V c main_arg0)) := by
  have h24 : t.val % 25 = 24 := (flush0_1 t).mp hf
  obtain ⟨-, -, e2, e3⟩ := idx_facts t
  show (cfg0.win 1).cut (grid0.coords t) ((dat0 V c).after 1 t) = _
  rw [after0_1]
  funext y
  obtain ⟨p, z, rfl⟩ : ∃ (p : Fin 128) (z : Fin 1), y = ix2 p z := ⟨y 0, y 1, eq_ix2 y⟩
  show outsAt0 V c t.val t.isLt (ix2 p z) = energyCol (V c main_arg0) (((cfg0.win 1).blk t).view.emb (ix2 p z))
  rw [column_after V c t.val t.isLt p z ((((cfg0.win 1).blk t).view.emb (ix2 p z)) 0)
    (by show win0_1.index t (0 : Fin 2) * 128 + 1 * p.val = _; omega), h24]
  unfold running
  rw [if_pos rfl]
  rfl

/-- An index of the column is in step t's block iff each coordinate is in the block's range on its axis. -/
theorem mem_blk (t : Fin cfg0.N) (i : S256x1.Idx) :
    i ∈ ((cfg0.win 1).blk t).view.set ↔ ∀ a : Fin 2, win0_1.index t a * S128x1.size a ≤ (i a).val
      ∧ (i a).val < win0_1.index t a * S128x1.size a + S128x1.size a := by
  show i ∈ ((View.whole main_v0).slice (win0_1.rect t)).set ↔ _
  rw [View.set_slice_whole, Rect.mem_set_unit]
  exact Iff.rfl

/-- After the pass the column holds every waveform's energy: row i is written back by the last step of its half. -/
theorem energy_final (c : Dev nD) : (dat0 V c).arrAt 1 cfg0.N = energyCol (V c main_arg0) :=
  (dat0 V c).arrAt_eq_of_cover 1 (energyCol (V c main_arg0)) (flushed_eq V c) fun i => by
    have hi0 : (i 0).val < 256 := (i 0).isLt
    have hi1 : (i 1).val < 1 := (i 1).isLt
    have hN : cfg0.N = 50 := N_0
    let t : Fin cfg0.N := ⟨25 * ((i 0).val / 128) + 24, by rw [hN]; omega⟩
    have ht : t.val = 25 * ((i 0).val / 128) + 24 := rfl
    obtain ⟨-, -, e2, e3⟩ := idx_facts t
    refine ⟨t, (flush0_1 t).mpr (by omega), ?_⟩
    rw [mem_blk]
    intro a
    match a with
    | ⟨0, _⟩ =>
      show win0_1.index t (0 : Fin 2) * 128 ≤ (i 0).val ∧ (i 0).val < win0_1.index t (0 : Fin 2) * 128 + 128
      omega
    | ⟨1, _⟩ =>
      show win0_1.index t (1 : Fin 2) * 1 ≤ (i 1).val ∧ (i 1).val < win0_1.index t (1 : Fin 2) * 1 + 1
      omega

end Cert.KernelIdeal.Energy

end
-- ==== Proof.MixBlocks.lean ====
/-
  The mixing pass as a whole: after it, the result array holds every waveform plus its successor scaled by the
  ratio of the energies the pass was given.

  The pass visits 50 tiles of 3200 samples, all 256 waveforms at once, with the whole energy column beside the
  tile. Inside a tile the successor of row p is row p + 1, the last row's successor the first: a rotation of the
  rows by 255 reads row (p + 256 − 255) mod 256. So entry (p, q) of the tile the pass stores is
      x[p,q] + ρ p · x[p⁺,q]
  with ρ p computed from rows p and p⁺ of the column; sample q of tile t is sample 3200·t + q, and every tile
  is written back, so the tiles cover the array.
-/
import proofs.«104837_j55559696941464_2_alg».proof.Proof.Gen.KernelIdeal.Frame
import proofs.«104837_j55559696941464_2_alg».proof.Proof.MixSpec
import proofs.«104837_j55559696941464_2_alg».proof.Proof.LibRowOps
import Idealize.ShloMosaic.Lib.Pipeline.Value
import Idealize.ShloMosaic.Lib.KernelVsHost

noncomputable section

open Idealize.ShloMosaic Idealize.ShloMosaic.TcCoe Idealize.SL.Sem Idealize.ShloMosaic.ValueIdx
open Idealize.ShloMosaic.Pipeline (Dat)

namespace Cert.KernelIdeal.Mixing

open Cert.KernelIdeal Cert.KernelIdeal.Gen Cert.SegMix

theorem hz : (![0, 0] : Fin 2 → Nat) = fun _ => 0 := funext fun a => by fin_cases a <;> rfl

/-! ## The stored tile at an entry -/

/-- 256 rows rotated by 255, at row p: row p's successor. -/
theorem roll_at {B : ℕ} {α : Type} (x : (⟨2, ![256, B]⟩ : Shape).Idx → α)
    (h : (⟨2, ![256, B]⟩ : Shape).Rotates 0 none) (p : Fin 256) (q : Fin B) :
    dynamicRotate 0 255#32 none x h (ix2 p q) = x (ix2 (nxt p) q) :=
  dynamicRotate_apply (0 : Fin 2) 255#32 x h (ix2 p q) (ix2 (nxt p) q) fun b => by
    match b with
    | ⟨0, _⟩ =>
      show (nxt p).val = (p.val + 256 - 255 % 256) % 256
      rw [nxt_val]
      omega
    | ⟨1, _⟩ => rfl

/-- Entry (p, q) of the stored tile: the entry plus the scaled entry of the next row. -/
theorem mix_at (x0 : Vec Ideal S256x3200 .f32) (x1 : Vec Ideal S256x1 .f32) (p : Fin 256) (q : Fin 3200) :
    k1_pay1 (F := Ideal) x0 x1 (ix2 p q) = x0 (ix2 p q) + scale x1 p * x0 (ix2 (nxt p) q) := by
  unfold k1_pay1
  refine congrArg₂ (fun a b => x0 (ix2 p q) + a * b)
    ((LibRowOps.bcast_a1_ab _ broadcasts_S256x1_S256x3200 p q).trans ?_) (roll_at x0 rotates_S256x3200_d0 p q)
  show min _ (max _ (Ideal.sqrt (Ideal.div (shapeCast S256x1 x1 shapeCasts_S256x1_S256x1 (ix2 p 0))
    (max (dynamicRotate 0 255#32 none (shapeCast S256x1 x1 shapeCasts_S256x1_S256x1) rotates_S256x1_d0 (ix2 p 0)) _)))) = _
  rw [roll_at _ rotates_S256x1_d0 p 0, shapeCast_self]
  rfl

/-! ## Which samples a tile holds -/

/-- The block indices of the three windows at tile t: all the rows; tile t of the samples; the whole column. -/
theorem idx_facts : ∀ t : Fin cfg1.N, win1_0.index t (0 : Fin 2) = 0 ∧ win1_0.index t (1 : Fin 2) = t.val
    ∧ win1_1.index t (0 : Fin 2) = 0 ∧ win1_1.index t (1 : Fin 2) = 0
    ∧ win1_2.index t (0 : Fin 2) = 0 ∧ win1_2.index t (1 : Fin 2) = t.val :=
  (by decide +kernel : ∀ t : Fin grid1.N, _)

variable (V : (c : Dev nD) → (b : Ref sig .tc) → Buf (Elt Ideal) ((c : Thread nD τ).loc b))

/-- The tile of waveforms step t reads, and the energy column beside it. -/
abbrev tileOf (c : Dev nD) (t : Fin cfg1.N) : Vec Ideal S256x3200 .f32 := iblk1 V c 0 t
abbrev colOf (c : Dev nD) (t : Fin cfg1.N) : Vec Ideal S256x1 .f32 := iblk1 V c 1 t

/-- Entry (p, q) of tile t is sample 3200·t + q of waveform p. -/
theorem tile_at (c : Dev nD) (t : Fin cfg1.N) (p : Fin 256) (q : Fin 3200) (j : Fin 160000)
    (hj : j.val = 3200 * t.val + q.val) : tileOf V c t (ix2 p q) = V c main_arg0 (ix2 p j) := by
  obtain ⟨e0, e1, -, -, -, -⟩ := idx_facts t
  show V c main_arg0 (((cfg1.win 0).blk t).view.emb (ix2 p q)) = V c main_arg0 (ix2 p j)
  refine congrArg (V c main_arg0) (funext fun a => Fin.ext ?_)
  match a with
  | ⟨0, _⟩ => show win1_0.index t (0 : Fin 2) * 256 + 1 * p.val = p.val; omega
  | ⟨1, _⟩ => show win1_0.index t (1 : Fin 2) * 3200 + 1 * q.val = j.val; omega

/-- The column beside every tile is the whole energy column. -/
theorem col_at (c : Dev nD) (t : Fin cfg1.N) (p : Fin 256) (z : Fin 1) :
    colOf V c t (ix2 p z) = V c main_v0 (ix2 p z) := by
  obtain ⟨-, -, e2, e3, -, -⟩ := idx_facts t
  show V c main_v0 (((cfg1.win 1).blk t).view.emb (ix2 p z)) = V c main_v0 (ix2 p z)
  refine congrArg (V c main_v0) (funext fun a => Fin.ext ?_)
  match a with
  | ⟨0, _⟩ => show win1_1.index t (0 : Fin 2) * 256 + 1 * p.val = p.val; omega
  | ⟨1, _⟩ => show win1_1.index t (1 : Fin 2) * 1 + 1 * z.val = z.val; omega

theorem scale_col (c : Dev nD) (t : Fin cfg1.N) (p : Fin 256) : scale (colOf V c t) p = scale (V c main_v0) p := by
  unfold scale
  rw [col_at V c t p 0, col_at V c t (nxt p) 0]

/-! ## The result array after the pass -/

/-- What step t writes back is tile t of the mix of the waveforms with the given energy column. -/
theorem flushed_eq (c : Dev nD) (t : Fin cfg1.N) :
    (dat1 V c).flushed 2 t = ((cfg1.win 2).blk t).view.read (Elt Ideal) (mixWith (V c main_arg0) (V c main_v0)) := by
  show (cfg1.win 2).cut (grid1.coords t) ((dat1 V c).after 2 t) = _
  rw [after1_2]
  unfold out1_2
  rw [View.canon_unit_zero hz]
  simp only [View.ld_unit_zero (S := S256x3200) hz, View.ld_unit_zero (S := S256x1) hz]
  obtain ⟨-, -, -, -, e4, e5⟩ := idx_facts t
  have hN : t.val < 50 := lt_of_lt_of_eq t.isLt N_1
  funext y
  obtain ⟨p, q, rfl⟩ : ∃ (p : Fin 256) (q : Fin 3200), y = ix2 p q := ⟨y 0, y 1, eq_ix2 y⟩
  refine (mix_at (tileOf V c t) (colOf V c t) p q).trans ?_
  have hj : 3200 * t.val + q.val < 160000 := by have := q.isLt; omega
  have hi : ((cfg1.win 2).blk t).view.emb (ix2 p q) = ix2 p (⟨3200 * t.val + q.val, hj⟩ : Fin 160000) :=
    funext fun a => Fin.ext (by
      match a with
      | ⟨0, _⟩ => show win1_2.index t (0 : Fin 2) * 256 + 1 * p.val = p.val; omega
      | ⟨1, _⟩ => show win1_2.index t (1 : Fin 2) * 3200 + 1 * q.val = 3200 * t.val + q.val; omega)
  show _ = mixWith (V c main_arg0) (V c main_v0) (((cfg1.win 2).blk t).view.emb (ix2 p q))
  rw [hi, tile_at V c t p q ⟨_, hj⟩ rfl, tile_at V c t (nxt p) q ⟨_, hj⟩ rfl, scale_col]
  rfl

/-- An index of the array is in step t's tile iff each coordinate is in the tile's range on its axis. -/
theorem mem_blk (t : Fin cfg1.N) (i : S256x160000.Idx) :
    i ∈ ((cfg1.win 2).blk t).view.set ↔ ∀ a : Fin 2, win1_2.index t a * S256x3200.size a ≤ (i a).val
      ∧ (i a).val < win1_2.index t a * S256x3200.size a + S256x3200.size a := by
  show i ∈ ((View.whole main_v1).slice (win1_2.rect t)).set ↔ _
  rw [View.set_slice_whole, Rect.mem_set_unit]
  exact Iff.rfl

/-- After the pass the result array is the mix: sample j lies in tile j / 3200. -/
theorem mix_final (c : Dev nD) : (dat1 V c).arrAt 2 cfg1.N = mixWith (V c main_arg0) (V c main_v0) :=
  (dat1 V c).arrAt_eq_of_cover 2 (mixWith (V c main_arg0) (V c main_v0)) (fun t _ => flushed_eq V c t) fun i => by
    have hi0 : (i 0).val < 256 := (i 0).isLt
    have hi1 : (i 1).val < 160000 := (i 1).isLt
    have hN : cfg1.N = 50 := N_1
    let t : Fin cfg1.N := ⟨(i 1).val / 3200, by rw [hN]; omega⟩
    have ht : t.val = (i 1).val / 3200 := rfl
    obtain ⟨-, -, -, -, e4, e5⟩ := idx_facts t
    refine ⟨t, flush1_2 t, ?_⟩
    rw [mem_blk]
    intro a
    match a with
    | ⟨0, _⟩ =>
      show win1_2.index t (0 : Fin 2) * 256 ≤ (i 0).val ∧ (i 0).val < win1_2.index t (0 : Fin 2) * 256 + 256
      omega
    | ⟨1, _⟩ =>
      show win1_2.index t (1 : Fin 2) * 3200 ≤ (i 1).val ∧ (i 1).val < win1_2.index t (1 : Fin 2) * 3200 + 3200
      omega

end Cert.KernelIdeal.Mixing

end
-- ==== Proof.KernelRun.lean ====
/-
  The kernel's two passes, run one after the other: every execution ends with the result array holding the mix of
  the launched waveforms and with the waveforms as launched.

  The run is the two regions in sequence, each entered from the buffer contents the one before left. Read at its
  end, the result buffer holds what the mixing pass left, which is the mix of the waveforms with the column it was
  given; that column is what the energy pass left, the energies of the waveforms; and neither pass writes the
  waveforms. So the result is the mix of the launched waveforms with their own energies.
-/
import proofs.«104837_j55559696941464_2_alg».proof.Proof.EnergyValue
import proofs.«104837_j55559696941464_2_alg».proof.Proof.MixBlocks

noncomputable section

namespace Cert.KernelIdeal.Whole

open Cert.KernelIdeal Cert.KernelIdeal.Gen Cert.SegMix
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section AnyValues

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the two passes terminates with the result buffer at what the second pass's exit contents
    hold for it, and the waveforms as launched: both buffers are among those held at the last boundary. -/
theorem run_named : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c)⟩)

end AnyValues

/-! ## At the extended reals -/

variable (m : (ℓ : Loc nD τ sig) → Buf (Elt Ideal) ℓ) (ρ : Dev nD → PrngReg)

/-- The waveforms the mixing pass finds are the launched ones: the energy pass only reads them. -/
theorem found_waves (c : Dev nD) : V1 m ρ c main_arg0 = m ((c.tc : Thread nD τ).loc main_arg0) :=
  (W1_arr m ρ c 0).trans (((dat0 (V0 m ρ) c).arrAt_in 0 rfl _).trans (A_eq0 (V0 m ρ) c 0))

/-- The column the mixing pass finds is the energy column of the launched waveforms. -/
theorem found_energies (c : Dev nD) : V1 m ρ c main_v0 = energyCol (m ((c.tc : Thread nD τ).loc main_arg0)) :=
  (W1_arr m ρ c 1).trans (Energy.energy_final (V0 m ρ) c)

/-- What the last boundary holds for the result buffer: the mix of the launched waveforms. -/
theorem result_eq (c : Dev nD) : W2 m ρ c (Proc.devRef .tc main_v1) = mix (m ((c.tc : Thread nD τ).loc main_arg0)) := by
  refine (W2_arr m ρ c 2).trans ((Mixing.mix_final (V1 m ρ) c).trans ?_)
  rw [found_waves, found_energies]
  rfl

/-- The kernel's run: the result at the mix of the launched waveforms, the waveforms unchanged. -/
theorem run : θ_run defs (onTc (τ := τ) (main (F := Ideal))) ⟨m, fun _ => 0, ρ⟩ (fun r => ∀ c : Dev nD,
      r.2.mem ((c.tc : Thread nD τ).loc main_v1) = mix (m ((c.tc : Thread nD τ).loc main_arg0))
      ∧ r.2.mem ((c.tc : Thread nD τ).loc main_arg0) = m ((c.tc : Thread nD τ).loc main_arg0)
      ∧ r.2.mem ((c.tc : Thread nD τ).loc main_arg0) = m ((c.tc : Thread nD τ).loc main_arg0)) :=
  (θ_run defs _ _).mono (fun _ h c => ⟨(h c).1.trans (result_eq m ρ c), (h c).2, (h c).2⟩) (run_named m ρ)

end Cert.KernelIdeal.Whole

end
-- ==== Proof.RefValue.lean ====
/-
  The reference computes the mix. Read stage by stage at an index: the mean of a waveform's squares is its
  energy; a roll by one — rows 1 to 255 followed by row 0 — reads row r at its successor, rows below 255 from the
  first piece and row 255 from the second; the clipped square root of the ratio of a waveform's energy to its
  successor's is the scale; and the result adds to each waveform its successor times the scale.
-/
import proofs.«104837_j55559696941464_2_alg».proof.Proof.Gen.ReferenceIdeal.Read
import proofs.«104837_j55559696941464_2_alg».proof.Proof.MixSpec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.SegMix
open Idealize.ShloMosaic Idealize.ShloMosaic.ValueIdx

/-- The mean of waveform r's squares is its energy. -/
theorem mean_sq (x : Waves) (r : Fin 256) : val_main_v3 (F := Ideal) x (ix1 r) = energy x r := by
  rw [val_main_v3_apply, val_main_v1_apply, val_main_v2_apply, val_main_cst_0_apply, val_main_cst_apply]
  have e : ∀ k : Fin 160000, idx_main_v1 (ix1 r) k = ix2 r k := fun k =>
    funext fun a => Fin.ext (by match a with | ⟨0, _⟩ => rfl | ⟨1, _⟩ => rfl)
  simp only [val_main_v0_apply, e]
  rfl

/-- The energies rolled by one, at r: the successor's energy. -/
theorem next_energy (x : Waves) (r : Fin 256) : val_main_v5 (F := Ideal) x (ix1 r) = energy x (nxt r) := by
  unfold val_main_v5
  by_cases h : r.val < 255
  · refine (concatenate_pair_apply_left (t := S256) (s₁ := S255) (s₂ := S1) (0 : Fin 1) _ _ concatenates_S255_S1_S256_d0 (ix1 r) rfl
      (ix1 (⟨r.val, h⟩ : Fin 255)) (fun b => by match b with | ⟨0, _⟩ => rfl)).trans ?_
    rw [val_main_call1_v0_apply, ← mean_sq]
    refine congrArg (val_main_v3 (F := Ideal) x) (funext fun a => Fin.ext ?_)
    match a with
    | ⟨0, _⟩ => show 1 + r.val = (nxt r).val; rw [nxt_val]; omega
  · have h255 : r.val = 255 := by have := r.isLt; omega
    refine (concatenate_pair_apply_right (t := S256) (s₁ := S255) (s₂ := S1) (0 : Fin 1) _ _ concatenates_S255_S1_S256_d0 (ix1 r) rfl rfl
      (ix1 (0 : Fin 1)) (fun b hb => by match b with | ⟨0, _⟩ => exact absurd rfl hb)
      (by show 0 + 255 = r.val; omega)).trans ?_
    rw [val_main_call1_v1_apply, ← mean_sq]
    refine congrArg (val_main_v3 (F := Ideal) x) (funext fun a => Fin.ext ?_)
    match a with
    | ⟨0, _⟩ => show 0 = (nxt r).val; rw [nxt_val]; omega

/-- The waveforms rolled by one, at (r, k): the successor's sample. -/
theorem next_wave (x : Waves) (r : Fin 256) (k : Fin 160000) :
    val_main_v4 (F := Ideal) x (ix2 r k) = x (ix2 (nxt r) k) := by
  unfold val_main_v4
  by_cases h : r.val < 255
  · refine (concatenate_pair_apply_left (t := S256x160000) (s₁ := S255x160000) (s₂ := S1x160000) (0 : Fin 2) _ _ concatenates_S255x160000_S1x160000_S256x160000_d0 (ix2 r k) rfl
      (ix2 (⟨r.val, h⟩ : Fin 255) k) (fun b => by match b with | ⟨0, _⟩ => rfl | ⟨1, _⟩ => rfl)).trans ?_
    rw [val_main_call0_v0_apply]
    refine congrArg x (funext fun a => Fin.ext ?_)
    match a with
    | ⟨0, _⟩ => show 1 + r.val = (nxt r).val; rw [nxt_val]; omega
    | ⟨1, _⟩ => rfl
  · have h255 : r.val = 255 := by have := r.isLt; omega
    refine (concatenate_pair_apply_right (t := S256x160000) (s₁ := S255x160000) (s₂ := S1x160000) (0 : Fin 2) _ _ concatenates_S255x160000_S1x160000_S256x160000_d0 (ix2 r k) rfl rfl
      (ix2 (0 : Fin 1) k) (fun b hb => by match b with | ⟨0, _⟩ => exact absurd rfl hb | ⟨1, _⟩ => rfl)
      (by show 0 + 255 = r.val; omega)).trans ?_
    rw [val_main_call0_v1_apply]
    refine congrArg x (funext fun a => Fin.ext ?_)
    match a with
    | ⟨0, _⟩ => show 0 = (nxt r).val; rw [nxt_val]; omega
    | ⟨1, _⟩ => rfl

/-- The clipped ratio at r is the scale of waveform r against its successor. -/
theorem clipped_ratio (x : Waves) (r : Fin 256) : val_main_v10 (F := Ideal) x (ix1 r) = scale (energyCol x) r := by
  rw [val_main_v10_apply, val_main_call2_v4_apply, val_main_call2_v3_apply, val_main_cst_3_apply,
    val_main_call2_v2_apply, val_main_call2_v1_apply, val_main_call2_v0_apply, val_main_cst_2_apply,
    val_main_v9_apply, val_main_v8_apply, val_main_v7_apply, val_main_v6_apply, val_main_cst_1_apply,
    mean_sq, next_energy]
  rfl

/-- The reference's result is the mix. -/
theorem result_eq (x : Waves) : val_main_v14 (F := Ideal) x = mix x := by
  funext i
  obtain ⟨r, k, rfl⟩ : ∃ (r : Fin 256) (k : Fin 160000), i = ix2 r k := ⟨i 0, i 1, eq_ix2 i⟩
  have e : idx_main_v11 (idx_main_v12 (ix2 r k)) = ix1 r :=
    funext fun a => Fin.ext (by match a with | ⟨0, _⟩ => rfl)
  rw [val_main_v14_apply, val_main_v13_apply, val_main_v12_apply, val_main_v11_apply, e, clipped_ratio, next_wave]
  rfl

end Cert.ReferenceIdeal.RefValue

end
-- ==== Proof.lean ====
/-
  The kernel and its reference compute one function of the waveforms at the extended reals.

  For 256 waveforms x[r, ·] of 160000 samples, both programs return the waveforms unchanged and, beside them,
      x[r,j] + ρ r · x[r⁺,j],    ρ r = min 50 (max 0.02 (√(E r / max (E r⁺) 1e-10))),    E r = (0 + ∑ₖ x[r,k]²) / 160000,
  where r⁺ is the next waveform, the last one's successor being the first.

  The kernel works in two passes. The first adds up each waveform's squares stretch by stretch — 25 stretches of
  6400 samples, the running sums kept in a column that is reset before the first stretch and divided after the
  last — and so leaves the energies E; at the extended reals adding the stretches one after the other is adding
  all the samples, because addition there is associative. The second pass takes the waveforms tile by tile with
  the energy column beside them, finds each row's successor by rotating the rows, and stores the sum above. The
  reference takes the mean of the squares in one sum, rolls the waveforms and the energies by one row (rows 1
  to 255, then row 0), and forms the same expression with the same five constants, word for word; its quotient
  and square root are the kernel's at the extended reals. No step uses that the samples are finite.

  Each program runs, faults nowhere and leaves the waveforms as launched (the three frames); the idealized kernel
  is the kernel's own text read at the extended reals (nothing was rewritten); and from memories that agree on
  the waveforms the two idealized programs end with equal results.
-/
import proofs.«104837_j55559696941464_2_alg».proof.Defs
import proofs.«104837_j55559696941464_2_alg».proof.Proof.Gen.Kernel
import proofs.«104837_j55559696941464_2_alg».proof.Proof.Gen.Kernel.Frame
import proofs.«104837_j55559696941464_2_alg».proof.Proof.Gen.KernelIdeal
import proofs.«104837_j55559696941464_2_alg».proof.Proof.Gen.KernelIdeal.Frame
import proofs.«104837_j55559696941464_2_alg».proof.Proof.Gen.ReferenceIdeal
import proofs.«104837_j55559696941464_2_alg».proof.Proof.Gen.ReferenceIdeal.Run
import proofs.«104837_j55559696941464_2_alg».proof.Proof.Gen.Pre_finite_inputs
import proofs.«104837_j55559696941464_2_alg».proof.Proof.KernelRun
import proofs.«104837_j55559696941464_2_alg».proof.Proof.RefValue
import Idealize.ShloMosaic.Adequacy
import Idealize.ShloMosaic.Init

noncomputable section

namespace Cert.Proof

open Idealize.ShloMosaic Idealize.SL.Sem

/-- The kernel as printed runs and leaves the waveforms as launched. -/
theorem frame_kernel : Cert.frame_Kernel := fun m ρ _ => Cert.Kernel.Gen.frame m ρ

/-- So does the kernel read at the extended reals. -/
theorem frame_ideal : Cert.frame_KernelIdeal := fun m ρ _ => Cert.KernelIdeal.Gen.frame m ρ

/-- The reference runs and leaves the waveforms as launched: its run, the result dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Nothing was rewritten between the kernel and its reading at the extended reals. -/
theorem preserves : Cert.preserves_Kernel_KernelIdeal := trivial

/-- From memories that agree on the waveforms, the kernel's result array ends at the mix of the waveforms and the
    reference's at its last stage of them, which is the mix; both leave the waveforms as launched. -/
theorem algebraic : Cert.algebraic_KernelIdeal_ReferenceIdeal := by
  intro m ρ m' ρ' _ hagree
  refine ⟨fun c => Cert.SegMix.mix (m (c.tc.loc Cert.KernelIdeal.main_arg0)),
    fun c => m (c.tc.loc Cert.KernelIdeal.main_arg0), Cert.KernelIdeal.Whole.run m ρ, ?_⟩
  refine (θ_run Cert.ReferenceIdeal.defs _ _).mono (fun _ h c => ⟨(h c).1.trans ?_, (h c).2.1.trans (hagree c), (h c).2.2⟩)
    (Cert.ReferenceIdeal.Value.run (F := Ideal) m' ρ')
  exact (Cert.ReferenceIdeal.Read.val_main_v14_eq (F := Ideal) _).trans
    ((Cert.ReferenceIdeal.RefValue.result_eq _).trans (congrArg Cert.SegMix.mix (hagree c)))

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
